-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S256 : Shape := ⟨1, ![256]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel

variable [Facts]

def fn {F : FTy → Type} [FloatOps F] (main_arg0 : FVec F S256x3x224x224 .f32) (main_arg1 : IVec S256 32) (main_arg2 : IVec S256 32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  main_v3
-- ==== Kernel.lean ====
abbrev S256x3x224x224 : Shape := ⟨4, ![256, 3, 224, 224]⟩
abbrev S256 : Shape := ⟨1, ![256]⟩
abbrev S256x1x1x1 : Shape := ⟨4, ![256, 1, 1, 1]⟩
abbrev S8x3x224x224 : Shape := ⟨4, ![8, 3, 224, 224]⟩
abbrev S8x1x1x1 : Shape := ⟨4, ![8, 1, 1, 1]⟩
abbrev S8x1x224x224 : Shape := ⟨4, ![8, 1, 224, 224]⟩

abbrev nBuf : Space → Nat
  | .hbm => 6
  | .vmem => 8
  | .smem => 0
  | _ => 0

abbrev bufTy : (tb : Table) → Fin (tcTables nBuf tb) → BufTy
  | .hbm, ⟨0, _⟩ => ⟨S256x3x224x224, .f32⟩
  | .hbm, ⟨1, _⟩ => ⟨S256, .i32⟩
  | .hbm, ⟨2, _⟩ => ⟨S256, .i32⟩
  | .hbm, ⟨3, _⟩ => ⟨S256x1x1x1, .i32⟩
  | .hbm, ⟨4, _⟩ => ⟨S256x1x1x1, .i32⟩
  | .hbm, ⟨5, _⟩ => ⟨S256x3x224x224, .f32⟩
  | .local _ .vmem, ⟨0, _⟩ => ⟨S8x3x224x224, .f32⟩
  | .local _ .vmem, ⟨1, _⟩ => ⟨S8x3x224x224, .f32⟩
  | .local _ .vmem, ⟨2, _⟩ => ⟨S8x1x1x1, .i32⟩
  | .local _ .vmem, ⟨3, _⟩ => ⟨S8x1x1x1, .i32⟩
  | .local _ .vmem, ⟨4, _⟩ => ⟨S8x1x1x1, .i32⟩
  | .local _ .vmem, ⟨5, _⟩ => ⟨S8x1x1x1, .i32⟩
  | .local _ .vmem, ⟨6, _⟩ => ⟨S8x3x224x224, .f32⟩
  | .local _ .vmem, ⟨7, _⟩ => ⟨S8x3x224x224, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S256x1x1x1 : S256.ShapeCasts S256x1x1x1
  iota_S8x1x224x224_d2_w32 : S8x1x224x224.Iotas .tc 32 [2]
  iota_S8x1x224x224_d3_w32 : S8x1x224x224.Iotas .tc 32 [3]
  inb_S8x1x1x1_S8x1x1x1_0_0_0_0 : ∀ a, (![0, 0, 0, 0] : Fin 4 → Nat) a + S8x1x1x1.size a ≤ S8x1x1x1.size a
  h_S8x1x1x1 : 0 < S8x1x1x1.numel
  shapeCasts_S8x1x1x1_S8x1x1x1 : S8x1x1x1.ShapeCasts S8x1x1x1
  broadcasts_S8x1x1x1_S8x1x224x224 : S8x1x1x1.Broadcasts S8x1x224x224
  inb_S8x3x224x224_S8x3x224x224_0_0_0_0 : ∀ a, (![0, 0, 0, 0] : Fin 4 → Nat) a + S8x3x224x224.size a ≤ S8x3x224x224.size a
  h_S8x3x224x224 : 0 < S8x3x224x224.numel
  broadcasts_S8x1x224x224_S8x3x224x224 : S8x1x224x224.Broadcasts S8x3x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x224x224.size a ≤ S256x3x224x224.size a
  hwx0_0 : ∀ i : grid0.Coords, EltTy.bits .f32 = 32 ∨ (Rect.block (s := S256x3x224x224) S8x3x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x1x1.size a ≤ S256x1x1x1.size a
  hwx0_1 : ∀ i : grid0.Coords, EltTy.bits .i32 = 32 ∨ (Rect.block (s := S256x1x1x1) S8x1x1x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x1x1.size a ≤ S256x1x1x1.size a
  hwx0_2 : ∀ i : grid0.Coords, EltTy.bits .i32 = 32 ∨ (Rect.block (s := S256x1x1x1) S8x1x1x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3x224x224.size a ≤ S256x3x224x224.size a
  hwx0_3 : ∀ i : grid0.Coords, EltTy.bits .f32 = 32 ∨ (Rect.block (s := S256x3x224x224) S8x3x224x224.size (cc0_transform_3 i) (hinb0_3 i)).WholeWords (EltTy.packing .f32)

variable [Facts₀]

abbrev win0_0 : Pipeline.Window sig grid0 :=
  Pipeline.Window.ofSpec (Memref.whole main_arg0) S8x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x3x224x224.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S256 : Shape := ⟨1, ![256]⟩
abbrev S224 : Shape := ⟨1, ![224]⟩
abbrev S1x224 : Shape := ⟨2, ![1, 224]⟩
abbrev S256x1 : Shape := ⟨2, ![256, 1]⟩
abbrev S256x224 : Shape := ⟨2, ![256, 224]⟩
abbrev S_ : Shape := ⟨0, ![]⟩
abbrev S256x1x224x1 : Shape := ⟨4, ![256, 1, 224, 1]⟩
abbrev S256x1x1x224 : Shape := ⟨4, ![256, 1, 1, 224]⟩
abbrev S256x1x224x224 : Shape := ⟨4, ![256, 1, 224, 224]⟩

abbrev nBuf : Space → Nat
  | .hbm => 45
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S256, .i32⟩
  | .hbm, ⟨2, _⟩ => ⟨S256, .i32⟩
  | .hbm, ⟨3, _⟩ => ⟨S224, .i32⟩
  | .hbm, ⟨4, _⟩ => ⟨S224, .i32⟩
  | .hbm, ⟨5, _⟩ => ⟨S1x224, .i32⟩
  | .hbm, ⟨6, _⟩ => ⟨S256x1, .i32⟩
  | .hbm, ⟨7, _⟩ => ⟨S256x224, .i32⟩
  | .hbm, ⟨8, _⟩ => ⟨S256x224, .i32⟩
  | .hbm, ⟨9, _⟩ => ⟨S256x224, .i1⟩
  | .hbm, ⟨10, _⟩ => ⟨S1x224, .i32⟩
  | .hbm, ⟨11, _⟩ => ⟨S256x1, .i32⟩
  | .hbm, ⟨12, _⟩ => ⟨S_, .i32⟩
  | .hbm, ⟨13, _⟩ => ⟨S256x1, .i32⟩
  | .hbm, ⟨14, _⟩ => ⟨S256x1, .i32⟩
  | .hbm, ⟨15, _⟩ => ⟨S256x224, .i32⟩
  | .hbm, ⟨16, _⟩ => ⟨S256x224, .i32⟩
  | .hbm, ⟨17, _⟩ => ⟨S256x224, .i1⟩
  | .hbm, ⟨18, _⟩ => ⟨S256x224, .i1⟩
  | .hbm, ⟨19, _⟩ => ⟨S1x224, .i32⟩
  | .hbm, ⟨20, _⟩ => ⟨S256x1, .i32⟩
  | .hbm, ⟨21, _⟩ => ⟨S256x224, .i32⟩
  | .hbm, ⟨22, _⟩ => ⟨S256x224, .i32⟩
  | .hbm, ⟨23, _⟩ => ⟨S256x224, .i1⟩
  | .hbm, ⟨24, _⟩ => ⟨S1x224, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S256x224, .i32⟩
  | .hbm, ⟨30, _⟩ => ⟨S256x224, .i32⟩
  | .hbm, ⟨31, _⟩ => ⟨S256x224, .i1⟩
  | .hbm, ⟨32, _⟩ => ⟨S256x224, .i1⟩
  | .hbm, ⟨33, _⟩ => ⟨S256x1x224x1, .i1⟩
  | .hbm, ⟨34, _⟩ => ⟨S256x1x1x224, .i1⟩
  | .hbm, ⟨35, _⟩ => ⟨S256x1x224x224, .i1⟩
  | .hbm, ⟨36, _⟩ => ⟨S256x1x224x224, .i1⟩
  | .hbm, ⟨37, _⟩ => ⟨S256x1x224x224, .i1⟩
  | .hbm, ⟨38, _⟩ => ⟨S_, .f32⟩
  | .hbm, ⟨39, _⟩ => ⟨S_, .f32⟩
  | .hbm, ⟨40, _⟩ => ⟨S256x1x224x224, .f32⟩
  | .hbm, ⟨41, _⟩ => ⟨S256x1x224x224, .f32⟩
  | .hbm, ⟨42, _⟩ => ⟨S256x1x224x224, .f32⟩
  | .hbm, ⟨43, _⟩ => ⟨S256x3x224x224, .f32⟩
  | .hbm, ⟨44, _⟩ => ⟨S256x3x224x224, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  bcast_S224_S1x224_1 : S224.BroadcastsInDim S1x224 (![1] : Fin 1 → Fin S1x224.rank)
  bcast_S256_S256x1_0 : S256.BroadcastsInDim S256x1 (![0] : Fin 1 → Fin S256x1.rank)
  bcast_S1x224_S256x224_0_1 : S1x224.BroadcastsInDim S256x224 (![0, 1] : Fin 2 → Fin S256x224.rank)
  bcast_S256x1_S256x224_0_1 : S256x1.BroadcastsInDim S256x224 (![0, 1] : Fin 2 → Fin S256x224.rank)
  bcast_S_S256x1 : S_.BroadcastsInDim S256x1 (![] : Fin 0 → Fin S256x1.rank)
  bcast_S256x224_S256x1x224x1_0_2 : S256x224.BroadcastsInDim S256x1x224x1 (![0, 2] : Fin 2 → Fin S256x1x224x1.rank)
  bcast_S256x224_S256x1x1x224_0_3 : S256x224.BroadcastsInDim S256x1x1x224 (![0, 3] : Fin 2 → Fin S256x1x1x224.rank)
  bcast_S256x1x224x1_S256x1x224x224_0_1_2_3 : S256x1x224x1.BroadcastsInDim S256x1x224x224 (![0, 1, 2, 3] : Fin 4 → Fin S256x1x224x224.rank)
  bcast_S256x1x1x224_S256x1x224x224_0_1_2_3 : S256x1x1x224.BroadcastsInDim S256x1x224x224 (![0, 1, 2, 3] : Fin 4 → Fin S256x1x224x224.rank)
  bcast_S_S256x1x224x224 : S_.BroadcastsInDim S256x1x224x224 (![] : Fin 0 → Fin S256x1x224x224.rank)
  bcast_S256x1x224x224_S256x3x224x224_0_1_2_3 : S256x1x224x224.BroadcastsInDim S256x3x224x224 (![0, 1, 2, 3] : Fin 4 → Fin S256x3x224x224.rank)

variable [Facts₀]

class Facts : Prop extends Facts₀ where

variable [Facts]
-- ==== Proof.DropoutSpec.lean ====
/-
  The square-dropout result as ONE function of the three argument arrays, index by index.

  For image `b` the zeroed patch is the square of side 32 whose top-left corner is `(y b, x b)`: row `h` lies in its
  band of rows when `y b ≤ h` and `h < y b + 32`, column `w` in its band of columns when `x b ≤ w` and `w < x b + 32` — both
  comparisons signed, the sum taken on 32-bit words (it wraps, for whatever corner the arrays hold). The factor an
  element at `(b, h, w)` is multiplied by is the word `0.0` inside the patch and the word `1.0` outside it, the same for
  every channel, and the result at `(b, c, h, w)` is the image's element times that factor. Nothing here evaluates
  the two float words or the product: both programs are shown to compute this same term, at any float instance.
-/
import Idealize.ShloMosaic.PureOps
import Idealize.ShloMosaic.Lib.ValueIdx

noncomputable section

namespace Cert.SquareDropout

open Idealize.ShloMosaic Idealize.ShloMosaic.ValueIdx

variable {F : FTy → Type} [FloatOps F]

/-- The image array's shape: image, channel, row, column. -/
abbrev ImgShape : Shape := ⟨4, ![256, 3, 224, 224]⟩
/-- The two corner arrays' shape: one word per image. -/
abbrev CornerShape : Shape := ⟨1, ![256]⟩

/-- The bit saying that position `p` lies in the band of 32 positions starting at the word `lo`. -/
def inBand (lo : BitVec 32) (p : Nat) : BitVec 1 :=
  IntOp.andi (IntOp.cmpi .sge (BitVec.ofNat 32 p) lo) (IntOp.cmpi .slt (BitVec.ofNat 32 p) (IntOp.addi lo 32#32))

/-- The factor of an element at row `h`, column `w` of an image whose patch has its corner at `(y, x)`: zero inside the
    patch, one outside. -/
def keep (y x : BitVec 32) (h w : Nat) : F .f32 :=
  Scalar.select (IntOp.andi (inBand y h) (inBand x w)) (FloatOps.ofBits .f32 0x00000000#32) (FloatOps.ofBits .f32 0x3F800000#32)

/-- The whole result: each image element times the factor of its image, row and column. -/
def result (img : ImgShape.Idx → F .f32) (y x : CornerShape.Idx → BitVec 32) : ImgShape.Idx → F .f32 :=
  fun i => FloatOps.mulf (img i) (keep (y (ix1 (n := 256) (i 0))) (x (ix1 (n := 256) (i 0))) (i 2).val (i 3).val)

end Cert.SquareDropout

end
-- ==== Proof.DropoutPayload.lean ====
/-
  The kernel body's one stored value, read at an index of its block.

  The body handles eight images at a time. Its payload is the image block times a factor block, and the factor at
  `(b, c, h, w)` does not depend on the channel `c`: it is built on the shape [8, 1, 224, 224] from a row-number
  vector, a column-number vector and the two blocks of eight corner words — each cast to its own shape twice (the
  identity) and repeated along rows and columns — and only then repeated along the channel axis. Read at
  `(b, c, h, w)`, the row-number vector is `h`, the column-number vector is `w`, each repeated corner block is image
  `b`'s own word, and so the payload is the image element times the factor of the specification at image `b`'s corner.
-/
import proofs.«125271_j30983894073613_1_alg».proof.Proof.Gen.KernelIdeal.Skeleton
import proofs.«125271_j30983894073613_1_alg».proof.Proof.DropoutSpec
import Idealize.ShloMosaic.Lib.Pipeline.Value
import Idealize.ShloMosaic.Lib.ValueIdx

noncomputable section

namespace Cert.SquareDropout

open Cert.KernelIdeal Cert.KernelIdeal.Gen Idealize.ShloMosaic Idealize.ShloMosaic.ValueIdx

variable {F : FTy → Type} [FloatOps F]

/-- The row-number vector of the factor's shape reads the row. -/
theorem rowNumber_apply (hI : S8x1x224x224.Iotas .tc 32 [2]) (b : Fin 8) (h w : Fin 224) :
    iota .tc S8x1x224x224 32 [2] hI (ix4 b (0 : Fin 1) h w) = BitVec.ofNat 32 h.val :=
  iota_single_apply .tc S8x1x224x224 32 2 hI _

/-- The column-number vector of the factor's shape reads the column. -/
theorem colNumber_apply (hI : S8x1x224x224.Iotas .tc 32 [3]) (b : Fin 8) (h w : Fin 224) :
    iota .tc S8x1x224x224 32 [3] hI (ix4 b (0 : Fin 1) h w) = BitVec.ofNat 32 w.val :=
  iota_single_apply .tc S8x1x224x224 32 3 hI _

/-- A block of eight corner words, cast to its own shape twice and repeated along rows and columns, reads image
    `b`'s word at every row and column. -/
theorem corner_apply (v : IVec S8x1x1x1 32) (h1 h2 : S8x1x1x1.ShapeCasts S8x1x1x1)
    (hb : S8x1x1x1.Broadcasts S8x1x224x224) (b : Fin 8) (h w : Fin 224) :
    broadcastTo S8x1x224x224 (shapeCast S8x1x1x1 (shapeCast S8x1x1x1 v h1) h2) hb (ix4 b (0 : Fin 1) h w)
      = v (ix4 b (0 : Fin 1) (0 : Fin 1) (0 : Fin 1)) := by
  rw [shapeCast_self, shapeCast_self]
  exact broadcastTo_apply v hb _ _ (fun a => match a with
    | ⟨0, _⟩ => by show b.val = if (8 : Nat) = 1 then 0 else b.val; rw [if_neg (by decide)]
    | ⟨1, _⟩ => by show 0 = if (1 : Nat) = 1 then 0 else (0 : Nat); rw [if_pos rfl]
    | ⟨2, _⟩ => by show 0 = if (1 : Nat) = 1 then 0 else h.val; rw [if_pos rfl]
    | ⟨3, _⟩ => by show 0 = if (1 : Nat) = 1 then 0 else w.val; rw [if_pos rfl])

/-- A vector of the factor's shape repeated along the channel axis reads, at any channel, its one channel. -/
theorem channels_apply {α : Type} (v : S8x1x224x224.Idx → α) (hb : S8x1x224x224.Broadcasts S8x3x224x224)
    (b : Fin 8) (ch : Fin 3) (h w : Fin 224) :
    broadcastTo S8x3x224x224 v hb (ix4 b ch h w) = v (ix4 b (0 : Fin 1) h w) :=
  broadcastTo_apply v hb _ _ (fun a => match a with
    | ⟨0, _⟩ => by show b.val = if (8 : Nat) = 1 then 0 else b.val; rw [if_neg (by decide)]
    | ⟨1, _⟩ => by show 0 = if (1 : Nat) = 1 then 0 else ch.val; rw [if_pos rfl]
    | ⟨2, _⟩ => by show h.val = if (224 : Nat) = 1 then 0 else h.val; rw [if_neg (by decide)]
    | ⟨3, _⟩ => by show w.val = if (224 : Nat) = 1 then 0 else w.val; rw [if_neg (by decide)])

/-- THE PAYLOAD AT AN INDEX: the image block's element times the factor of its row and column at image `b`'s corner,
    whatever the channel. -/
theorem payload_apply (v2 v6 : Vec F S8x1x1x1 .i32) (v24 : Vec F S8x3x224x224 .f32)
    (b : Fin 8) (ch : Fin 3) (h w : Fin 224) :
    k0_pay1 v2 v6 v24 (ix4 b ch h w)
      = FloatOps.mulf (v24 (ix4 b ch h w))
          (keep (v2 (ix4 b (0 : Fin 1) (0 : Fin 1) (0 : Fin 1))) (v6 (ix4 b (0 : Fin 1) (0 : Fin 1) (0 : Fin 1))) h.val w.val) := by
  unfold k0_pay1
  refine congrArg (FloatOps.mulf (v24 (ix4 b ch h w))) ?_
  refine (channels_apply _ _ b ch h w).trans ?_
  have eRow := rowNumber_apply iota_S8x1x224x224_d2_w32 b h w
  have eCol := colNumber_apply iota_S8x1x224x224_d3_w32 b h w
  simp only [select, cmpi, andi, addi, broadcast, corner_apply]
  rw [eRow, eCol]
  rfl

end Cert.SquareDropout

end
-- ==== Proof.DropoutBlocks.lean ====
/-
  From the kernel's blocks to its whole result array.

  The grid has 32 points; point `t` handles images `8t … 8t + 7`: every window's block index at `t` is `(t, 0, 0, 0)`,
  so the element `(b, c, h, w)` of the image block and of the output block is the array's element
  `(8t + b, c, h, w)`, and the element `(b, 0, 0, 0)` of a corner block is word `8t + b` of the corner array the host
  reshaped to [256, 1, 1, 1] before the region (a reshape keeps the row-major order, and here that order is the image
  number). With the payload read at an index, what point `t` writes back is therefore block `t` of the specification's
  function of the three argument arrays. The 32 blocks cover the array — image `i` belongs to point `i / 8` — so the
  array ends holding that function everywhere.
-/
import proofs.«125271_j30983894073613_1_alg».proof.Proof.Gen.KernelIdeal.Value
import proofs.«125271_j30983894073613_1_alg».proof.Proof.DropoutPayload
import Idealize.ShloMosaic.Lib.Pipeline.Value
import Idealize.ShloMosaic.Lib.StableHlo.Run
import Idealize.ShloMosaic.Lib.ValueIdx

noncomputable section

namespace Cert.SquareDropout

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

theorem zeroOffsets : (![0, 0, 0, 0] : Fin 4 → Nat) = fun _ => 0 := funext fun a => by fin_cases a <;> rfl

/-- Every window's block index at grid point `t` is `(t, 0, 0, 0)`: decided over the 32 points. -/
theorem blockIndex : ∀ t : Fin cfg0.N,
    (win0_3.index t (0 : Fin 4) = t.val ∧ win0_3.index t (1 : Fin 4) = 0 ∧ win0_3.index t (2 : Fin 4) = 0 ∧ win0_3.index t (3 : Fin 4) = 0)
    ∧ (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-! ## The arrays the region finds -/

/-- The row-corner array as the region finds it: the argument's words in order, at the shape [256, 1, 1, 1]. -/
theorem rowCorners_entry (c : Dev nD) :
    (V m c main_v0 : S256x1x1x1.Idx → BitVec 32)
      = shapeCast S256x1x1x1 (m ((c : Thread nD τ).loc main_arg1) : S256.Idx → BitVec 32) shapeCasts_S256_S256x1x1x1 := by
  dsimp only [V, hostOps0]; after_results; rfl

/-- The column-corner array as the region finds it, likewise. -/
theorem colCorners_entry (c : Dev nD) :
    (V m c main_v1 : S256x1x1x1.Idx → BitVec 32)
      = shapeCast S256x1x1x1 (m ((c : Thread nD τ).loc main_arg2) : S256.Idx → BitVec 32) shapeCasts_S256_S256x1x1x1 := by
  dsimp only [V, hostOps0]; after_results; rfl

/-- A corner array reshaped to [256, 1, 1, 1] reads, at image `g`, the argument's word `g`. -/
theorem reshaped_apply (Y : S256.Idx → BitVec 32) (hc : S256.ShapeCasts S256x1x1x1) (k : S256x1x1x1.Idx) (g : Fin 256)
    (h0 : (k 0).val = g.val) (h1 : (k 1).val = 0) (h2 : (k 2).val = 0) (h3 : (k 3).val = 0) :
    shapeCast S256x1x1x1 Y hc k = Y (ix1 g) := by
  refine shapeCast_apply Y hc k (ix1 g) ?_
  rw [Shape.rowMajor_val_one, Shape.rowMajor_val_four, h0, h1, h2, h3]
  show g.val = ((g.val * 1 + 0) * 1 + 0) * 1 + 0
  omega

/-! ## The input blocks at a point -/

/-- The image block at point `t`, at `(b, c, h, w)`, is the image argument at `(8t + b, c, h, w)`. -/
theorem imageBlock_apply (c : Dev nD) (t : Fin cfg0.N) (b : Fin 8) (ch : Fin 3) (h w : Fin 224) (g : Fin 256)
    (hg : g.val = t.val * 8 + b.val) :
    (iblk m c 0 t : Vec F S8x3x224x224 .f32) (ix4 b ch h w)
      = (m ((c : Thread nD τ).loc main_arg0) : S256x3x224x224.Idx → F .f32) (ix4 g ch h w) := by
  obtain ⟨-, ⟨e0, e1, e2, e3⟩, -, -⟩ := blockIndex t
  unfold iblk
  rw [View.read_apply]
  show V m c main_arg0 _ = _
  rw [V_main_arg0]
  refine congrArg (m ((c : Thread nD τ).loc main_arg0) : S256x3x224x224.Idx → F .f32) (funext fun a => Fin.ext ?_)
  match a with
  | ⟨0, _⟩ => show win0_0.index t (0 : Fin 4) * 8 + 1 * b.val = g.val; rw [e0, hg]; omega
  | ⟨1, _⟩ => show win0_0.index t (1 : Fin 4) * 3 + 1 * ch.val = ch.val; rw [e1]; omega
  | ⟨2, _⟩ => show win0_0.index t (2 : Fin 4) * 224 + 1 * h.val = h.val; rw [e2]; omega
  | ⟨3, _⟩ => show win0_0.index t (3 : Fin 4) * 224 + 1 * w.val = w.val; rw [e3]; omega

/-- The row-corner block at point `t`, at image `b` of the block, is word `8t + b` of the row-corner argument. -/
theorem rowCornerBlock_apply (c : Dev nD) (t : Fin cfg0.N) (b : Fin 8) (g : Fin 256) (hg : g.val = t.val * 8 + b.val) :
    (iblk m c 1 t : Vec F S8x1x1x1 .i32) (ix4 b (0 : Fin 1) (0 : Fin 1) (0 : Fin 1))
      = (m ((c : Thread nD τ).loc main_arg1) : S256.Idx → BitVec 32) (ix1 g) := by
  obtain ⟨-, -, ⟨e0, e1, e2, e3⟩, -⟩ := blockIndex t
  unfold iblk
  rw [View.read_apply]
  show V m c main_v0 _ = _
  rw [rowCorners_entry]
  refine reshaped_apply _ _ _ g ?_ ?_ ?_ ?_
  · show win0_1.index t (0 : Fin 4) * 8 + 1 * b.val = g.val; rw [e0, hg]; omega
  · show win0_1.index t (1 : Fin 4) * 1 + 1 * 0 = 0; rw [e1]
  · show win0_1.index t (2 : Fin 4) * 1 + 1 * 0 = 0; rw [e2]
  · show win0_1.index t (3 : Fin 4) * 1 + 1 * 0 = 0; rw [e3]

/-- The column-corner block at point `t`, at image `b` of the block, is word `8t + b` of the column-corner argument. -/
theorem colCornerBlock_apply (c : Dev nD) (t : Fin cfg0.N) (b : Fin 8) (g : Fin 256) (hg : g.val = t.val * 8 + b.val) :
    (iblk m c 2 t : Vec F S8x1x1x1 .i32) (ix4 b (0 : Fin 1) (0 : Fin 1) (0 : Fin 1))
      = (m ((c : Thread nD τ).loc main_arg2) : S256.Idx → BitVec 32) (ix1 g) := by
  obtain ⟨-, -, -, ⟨e0, e1, e2, e3⟩⟩ := blockIndex t
  unfold iblk
  rw [View.read_apply]
  show V m c main_v1 _ = _
  rw [colCorners_entry]
  refine reshaped_apply _ _ _ g ?_ ?_ ?_ ?_
  · show win0_2.index t (0 : Fin 4) * 8 + 1 * b.val = g.val; rw [e0, hg]; omega
  · show win0_2.index t (1 : Fin 4) * 1 + 1 * 0 = 0; rw [e1]
  · show win0_2.index t (2 : Fin 4) * 1 + 1 * 0 = 0; rw [e2]
  · show win0_2.index t (3 : Fin 4) * 1 + 1 * 0 = 0; rw [e3]

/-! ## What a point writes back, the cover, the array, the run -/

/-- The kernel's result array: the specification's function of the three argument arrays as launched. -/
abbrev kernelResult (c : Dev nD) : Buf (Elt F) ((c : Thread nD τ).loc main_v2) :=
  result (F := F) (m ((c : Thread nD τ).loc main_arg0)) (m ((c : Thread nD τ).loc main_arg1)) (m ((c : Thread nD τ).loc main_arg2))

/-- WHAT POINT `t` WRITES BACK is block `t` of the result. -/
theorem flushed_eq (c : Dev nD) (t : Fin cfg0.N) :
    (dats m 0 c).flushed 3 t = ((cfg0.win 3).blk t).view.read (Elt F) (kernelResult m c) := by
  have hN : cfg0.N = 32 := N_0
  have ht : t.val < 32 := hN ▸ t.isLt
  obtain ⟨⟨e0, e1, e2, e3⟩, -, -, -⟩ := blockIndex t
  rw [Value.flushed3]
  unfold out0_3
  rw [View.canon_unit_zero zeroOffsets]
  simp only [View.ld_unit_zero (S := S8x1x1x1) zeroOffsets, View.ld_unit_zero (S := S8x3x224x224) zeroOffsets]
  refine funext fun (j : S8x3x224x224.Idx) => ?_
  obtain ⟨b, ch, h, w, rfl⟩ : ∃ (b : Fin 8) (ch : Fin 3) (h w : Fin 224), j = ix4 b ch h w := ⟨j 0, j 1, j 2, j 3, eq_ix4 j⟩
  have hb : b.val < 8 := b.isLt
  obtain ⟨g, hg⟩ : ∃ g : Fin 256, g.val = t.val * 8 + b.val := ⟨⟨t.val * 8 + b.val, by omega⟩, rfl⟩
  show k0_pay1 (iblk m c 1 t) (iblk m c 2 t) (iblk m c 0 t) (ix4 b ch h w)
    = kernelResult m c (((cfg0.win 3).blk t).view.emb (ix4 b ch h w))
  refine (payload_apply (F := F) (iblk m c 1 t) (iblk m c 2 t) (iblk m c 0 t) b ch h w).trans ?_
  rw [imageBlock_apply m c t b ch h w g hg, rowCornerBlock_apply m c t b g hg, colCornerBlock_apply m c t b g hg]
  have eOut : ((cfg0.win 3).blk t).view.emb (ix4 b ch h w) = (ix4 g ch h w : S256x3x224x224.Idx) :=
    funext fun a => Fin.ext (by
      match a with
      | ⟨0, _⟩ => show win0_3.index t (0 : Fin 4) * 8 + 1 * b.val = g.val; rw [e0, hg]; omega
      | ⟨1, _⟩ => show win0_3.index t (1 : Fin 4) * 3 + 1 * ch.val = ch.val; rw [e1]; omega
      | ⟨2, _⟩ => show win0_3.index t (2 : Fin 4) * 224 + 1 * h.val = h.val; rw [e2]; omega
      | ⟨3, _⟩ => show win0_3.index t (3 : Fin 4) * 224 + 1 * w.val = w.val; rw [e3]; omega)
  rw [eOut]
  rfl

/-- An index of the array is in point `t`'s block iff each coordinate is in the block's range on its axis. -/
theorem mem_block (t : Fin cfg0.N) (i : S256x3x224x224.Idx) :
    i ∈ ((cfg0.win 3).blk t).view.set ↔ ∀ a : Fin 4, win0_3.index t a * S8x3x224x224.size a ≤ (i a).val
      ∧ (i a).val < win0_3.index t a * S8x3x224x224.size a + S8x3x224x224.size a := by
  show i ∈ ((View.whole main_v2).slice (win0_3.rect t)).set ↔ _
  rw [View.set_slice_whole, Rect.mem_set_unit]
  exact Iff.rfl

/-- THE COVER: image `i` lies in the block of point `i / 8`, which writes back. -/
theorem covered (i : S256x3x224x224.Idx) :
    ∃ t : Fin cfg0.N, (cfg0.win 3).flush t = true ∧ i ∈ ((cfg0.win 3).blk t).view.set := by
  have hN : cfg0.N = 32 := N_0
  have hi0 : (i 0).val < 256 := (i 0).isLt
  have hi1 : (i 1).val < 3 := (i 1).isLt
  have hi2 : (i 2).val < 224 := (i 2).isLt
  have hi3 : (i 3).val < 224 := (i 3).isLt
  obtain ⟨t, ht⟩ : ∃ t : Fin cfg0.N, t.val = (i 0).val / 8 :=
    ⟨⟨(i 0).val / 8, Nat.lt_of_lt_of_eq (by omega : (i 0).val / 8 < 32) hN.symm⟩, rfl⟩
  obtain ⟨⟨e0, e1, e2, e3⟩, -, -, -⟩ := blockIndex t
  refine ⟨t, flush0_3 t, ?_⟩
  rw [mem_block]
  intro a
  match a with
  | ⟨0, _⟩ => show win0_3.index t (0 : Fin 4) * 8 ≤ (i 0).val ∧ (i 0).val < win0_3.index t (0 : Fin 4) * 8 + 8; rw [e0, ht]; omega
  | ⟨1, _⟩ => show win0_3.index t (1 : Fin 4) * 3 ≤ (i 1).val ∧ (i 1).val < win0_3.index t (1 : Fin 4) * 3 + 3; rw [e1]; omega
  | ⟨2, _⟩ => show win0_3.index t (2 : Fin 4) * 224 ≤ (i 2).val ∧ (i 2).val < win0_3.index t (2 : Fin 4) * 224 + 224; rw [e2]; omega
  | ⟨3, _⟩ => show win0_3.index t (3 : Fin 4) * 224 ≤ (i 3).val ∧ (i 3).val < win0_3.index t (3 : Fin 4) * 224 + 224; rw [e3]; omega

/-- THE ARRAY after the run is the result, everywhere. -/
theorem final (c : Dev nD) : (dats m 0 c).arrAt 3 cfg0.N = kernelResult m c :=
  (dats m 0 c).arrAt_eq_of_cover 3 (kernelResult m c) (fun t _ => flushed_eq m c t) covered

/-- The kernel's run, read: the result array at the specification's function of the arguments, the arguments unchanged. -/
theorem run : θ_run defs (onTc (τ := τ) (main (F := F))) ⟨m, fun _ => 0, ρ⟩ fun r => ∀ c : Dev nD,
      r.2.mem ((c : Thread nD τ).loc main_v2) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.SquareDropout

end
-- ==== Proof.DropoutReference.lean ====
/-
  The reference's result is the specification's function.

  The reference builds the same factor on the whole arrays: two row-number vectors of length 224 compared with the
  corner words repeated along rows (the band of rows) and along columns (the band of columns), the two bands repeated
  to [256, 1, 224, 224] and joined, a select between the words `0.0` and `1.0`, the factor repeated along the channel
  axis, and the product with the image. Read at `(b, c, h, w)` through its 42 operations, each repetition reads its
  operand at the coordinates it keeps: the corner arrays at `b`, the row numbers at `h`, the column numbers at `w`.
-/
import proofs.«125271_j30983894073613_1_alg».proof.Proof.Gen.ReferenceIdeal.Read
import proofs.«125271_j30983894073613_1_alg».proof.Proof.DropoutSpec
import Idealize.ShloMosaic.Lib.ValueIdx

noncomputable section

namespace Cert.SquareDropout

open Cert.ReferenceIdeal Cert.ReferenceIdeal.Read Idealize.ShloMosaic Idealize.ShloMosaic.ValueIdx

variable {F : FTy → Type} [FloatOps F]

/-- The rows' lower comparison reads the row-corner array at the image. -/
theorem rowCorner_ge_idx (i : S256x3x224x224.Idx) :
    idx_main_v3 (idx_main_v5 (idx_main_v28 (idx_main_v30 (idx_main_v34 i)))) = ix1 (n := 256) (i 0) :=
  funext fun a => Fin.ext (by match a with | ⟨0, _⟩ => rfl)

/-- The rows' upper comparison reads the row-corner array at the image. -/
theorem rowCorner_lt_idx (i : S256x3x224x224.Idx) :
    idx_main_v8 (idx_main_v12 (idx_main_v28 (idx_main_v30 (idx_main_v34 i)))) = ix1 (n := 256) (i 0) :=
  funext fun a => Fin.ext (by match a with | ⟨0, _⟩ => rfl)

/-- The columns' lower comparison reads the column-corner array at the image. -/
theorem colCorner_ge_idx (i : S256x3x224x224.Idx) :
    idx_main_v16 (idx_main_v18 (idx_main_v29 (idx_main_v31 (idx_main_v34 i)))) = ix1 (n := 256) (i 0) :=
  funext fun a => Fin.ext (by match a with | ⟨0, _⟩ => rfl)

/-- The columns' upper comparison reads the column-corner array at the image. -/
theorem colCorner_lt_idx (i : S256x3x224x224.Idx) :
    idx_main_v21 (idx_main_v25 (idx_main_v29 (idx_main_v31 (idx_main_v34 i)))) = ix1 (n := 256) (i 0) :=
  funext fun a => Fin.ext (by match a with | ⟨0, _⟩ => rfl)

/-- THE REFERENCE IS THE SPECIFICATION: its last stage, as a function of the three argument arrays, is `result`. -/
theorem reference_eq (x0 : (⟨S256x3x224x224, .f32⟩ : BufTy).Contents (Elt F)) (x1 x2 : (⟨S256, .i32⟩ : BufTy).Contents (Elt F)) :
    val_main_v35 (F := F) x0 x1 x2 = result (F := F) x0 x1 x2 := by
  funext i
  simp only [val_main_v35_apply, val_main_v34_apply, val_main_v33_apply, val_main_v32_apply,
    val_main_v30_apply, val_main_v28_apply, val_main_v14_apply, val_main_v6_apply, val_main_v13_apply,
    val_main_v4_apply, val_main_v2_apply, val_main_v0_apply, val_main_v5_apply, val_main_v3_apply,
    val_main_v11_apply, val_main_v7_apply, val_main_v12_apply, val_main_v10_apply, val_main_v8_apply,
    val_main_v9_apply, val_main_c_apply,
    val_main_v31_apply, val_main_v29_apply, val_main_v27_apply, val_main_v19_apply, val_main_v26_apply,
    val_main_v17_apply, val_main_v15_apply, val_main_v1_apply, val_main_v18_apply, val_main_v16_apply,
    val_main_v24_apply, val_main_v20_apply, val_main_v25_apply, val_main_v23_apply, val_main_v21_apply,
    val_main_v22_apply, val_main_c_0_apply,
    val_main_call0_v0_apply, val_main_call0_v1_apply, val_main_cst_apply, val_main_cst_1_apply,
    rowCorner_ge_idx, rowCorner_lt_idx, colCorner_ge_idx, colCorner_lt_idx]
  rfl

end Cert.SquareDropout

end
-- ==== Proof.lean ====
/-
  Square dropout: a Pallas kernel over eight images per grid point against the jnp reference on whole arrays.

  Both programs multiply each image element by a factor that is the word `0.0` when the element's row and column lie
  in the 32 × 32 patch whose corner the two corner arrays give for its image, and the word `1.0` otherwise — the same
  factor for the three channels. The comparisons are signed comparisons of 32-bit words and the patch's far edge is a
  wrapping 32-bit sum, in the kernel and in the reference alike, so the two factors are the same function of the corner
  words whatever those words are; the float side is one product per element with the same two words. Hence the two
  results are ONE term of the three argument arrays (`Cert.SquareDropout.result`), and no law of the extended reals —
  in particular nothing that would need the inputs finite — is used: the precondition is never opened.

  The kernel's side: the payload of its one store read at an index (DropoutPayload), then block by block to the whole
  array over the generated frame run and blockwise value leg (DropoutBlocks). The reference's side: its generated run
  read one operation at a time (DropoutReference). Here: the three frames (the kernels' generated, the reference's its
  run with the result dropped), `preserves` (the idealization rewrote nothing), and the two runs side by side.
-/
import proofs.«125271_j30983894073613_1_alg».proof.Defs
import proofs.«125271_j30983894073613_1_alg».proof.Proof.Gen.Kernel
import proofs.«125271_j30983894073613_1_alg».proof.Proof.Gen.Kernel.Skeleton
import proofs.«125271_j30983894073613_1_alg».proof.Proof.Gen.Kernel.Launch
import proofs.«125271_j30983894073613_1_alg».proof.Proof.Gen.Kernel.Points
import proofs.«125271_j30983894073613_1_alg».proof.Proof.Gen.Kernel.Frame
import proofs.«125271_j30983894073613_1_alg».proof.Proof.Gen.KernelIdeal
import proofs.«125271_j30983894073613_1_alg».proof.Proof.Gen.KernelIdeal.Skeleton
import proofs.«125271_j30983894073613_1_alg».proof.Proof.Gen.KernelIdeal.Launch
import proofs.«125271_j30983894073613_1_alg».proof.Proof.Gen.KernelIdeal.Points
import proofs.«125271_j30983894073613_1_alg».proof.Proof.Gen.KernelIdeal.Frame
import proofs.«125271_j30983894073613_1_alg».proof.Proof.Gen.ReferenceIdeal
import proofs.«125271_j30983894073613_1_alg».proof.Proof.Gen.Pre_finite_inputs
import proofs.«125271_j30983894073613_1_alg».proof.Proof.Gen.KernelIdeal.Value
import proofs.«125271_j30983894073613_1_alg».proof.Proof.Gen.ReferenceIdeal.Run
import proofs.«125271_j30983894073613_1_alg».proof.Proof.Gen.ReferenceIdeal.Read
import proofs.«125271_j30983894073613_1_alg».proof.Proof.DropoutBlocks
import proofs.«125271_j30983894073613_1_alg».proof.Proof.DropoutReference
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing to restate. -/
theorem preserves : Cert.preserves_Kernel_KernelIdeal := trivial

/-- From memories that agree on the three arguments, the kernel's result array and the reference's both end at the
    specification's function of those arguments. -/
theorem algebraic : Cert.algebraic_KernelIdeal_ReferenceIdeal := by
  intro m ρ m' ρ' _ hagree
  refine ⟨fun c => Cert.SquareDropout.kernelResult (F := Ideal) m c, Cert.SquareDropout.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.SquareDropout.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
